-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x21x512x512 : Shape := ⟨4, ![16, 21, 512, 512]⟩
abbrev S16x512x512 : Shape := ⟨3, ![16, 512, 512]⟩
abbrev S_ : Shape := ⟨0, ![]⟩

class Facts : Prop where
  bcast_S_S16x21x512x512 : S_.BroadcastsInDim S16x21x512x512 (![] : Fin 0 → Fin S16x21x512x512.rank)
  reducesTo_S16x21x512x512_S_d0_1_2_3 : S16x21x512x512.ReducesTo [0, 1, 2, 3] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S16x21x512x512 .f32) (main_arg1 : IVec S16x512x512 32) : IVec S_ 1 :=
  let main_v0 : FVec F S16x21x512x512 .f32 := Host.absf main_arg0
  let main_cst : FVec F S_ .f32 := constant S_ .f32 0x7F800000#32
  let main_v1 : FVec F S16x21x512x512 .f32 := broadcastInDim S16x21x512x512 ![] bcast_S_S16x21x512x512 main_cst
  let main_v2 : IVec S16x21x512x512 1 := cmpf .olt main_v0 main_v1
  let main_c : IVec S_ 1 := constantI S_ 1 1#1
  let main_v3 : IVec S_ 1 := (fun x v => Host.reduce IntOp.andi x v reducesTo_S16x21x512x512_S_d0_1_2_3 h_S_) main_v2 main_c
  let main_c_0 : IVec S_ 32 := constantI S_ 32 0#32
  let main_v4 : IVec S16x512x512 32 := broadcastInDim S16x512x512 ![] bcast_S_S16x512x512 main_c_0
  let main_v5 : IVec S16x512x512 1 := cmpi .sge main_arg1 main_v4
  let main_c_1 : IVec S_ 32 := constantI S_ 32 21#32
  let main_v6 : IVec S16x512x512 32 := broadcastInDim S16x512x512 ![] bcast_S_S16x512x512 main_c_1
  let main_v7 : IVec S16x512x512 1 := cmpi .slt main_arg1 main_v6
  let main_v8 : IVec S16x512x512 1 := andi main_v5 main_v7
  let main_c_2 : IVec S_ 1 := constantI S_ 1 1#1
  let main_v9 : IVec S_ 1 := (fun x v => Host.reduce IntOp.andi x v reducesTo_S16x512x512_S_d0_1_2 h_S_) main_v8 main_c_2
  let main_v10 : IVec S_ 1 := andi main_v3 main_v9
  main_v10
-- ==== Kernel.lean ====
abbrev S16x21x512x512 : Shape := ⟨4, ![16, 21, 512, 512]⟩
abbrev S16x512x512 : Shape := ⟨3, ![16, 512, 512]⟩
abbrev S16x8x128 : Shape := ⟨3, ![16, 8, 128]⟩
abbrev S1x21x64x512 : Shape := ⟨4, ![1, 21, 64, 512]⟩
abbrev S1x64x512 : Shape := ⟨3, ![1, 64, 512]⟩
abbrev S1x8x128 : Shape := ⟨3, ![1, 8, 128]⟩
abbrev S8x128 : Shape := ⟨2, ![8, 128]⟩
abbrev S21x64x512 : Shape := ⟨3, ![21, 64, 512]⟩
abbrev S64x512 : Shape := ⟨2, ![64, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S16x1x1 : Shape := ⟨3, ![16, 1, 1]⟩
abbrev S16 : Shape := ⟨1, ![16]⟩
abbrev S_ : Shape := ⟨0, ![]⟩

abbrev nBuf : Space → Nat
  | .hbm => 27
  | .vmem => 10
  | .smem => 0
  | _ => 0

abbrev bufTy : (tb : Table) → Fin (tcTables nBuf tb) → BufTy
  | .hbm, ⟨0, _⟩ => ⟨S16x21x512x512, .f32⟩
  | .hbm, ⟨1, _⟩ => ⟨S16x512x512, .i32⟩
  | .hbm, ⟨2, _⟩ => ⟨S16x8x128, .f32⟩
  | .hbm, ⟨3, _⟩ => ⟨S16x8x128, .f32⟩
  | .hbm, ⟨4, _⟩ => ⟨S16x1x1, .f32⟩
  | .hbm, ⟨5, _⟩ => ⟨S16, .f32⟩
  | .hbm, ⟨6, _⟩ => ⟨S16x1x1, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x21x64x512, .f32⟩
  | .local _ .vmem, ⟨1, _⟩ => ⟨S1x21x64x512, .f32⟩
  | .local _ .vmem, ⟨2, _⟩ => ⟨S1x64x512, .i32⟩
  | .local _ .vmem, ⟨3, _⟩ => ⟨S1x64x512, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S8x128, .f32⟩
  | .local _ .vmem, ⟨9, _⟩ => ⟨S8x128, .f32⟩
  | _, _ => ⟨S16x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_21 : BitVec 32 := 0#32
  let v40 : BitVec 1 := Scalar.cmpi .ne v39 c0_i32_21
  v40

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x21x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x21x64x512_S1x21x64x512_0_0_0_0 : ∀ a, (![0, 0, 0, 0] : Fin 4 → Nat) a + S1x21x64x512.size a ≤ S1x21x64x512.size a
  h_S1x21x64x512 : 0 < S1x21x64x512.numel
  shapeCasts_S1x21x64x512_S21x64x512 : S1x21x64x512.ShapeCasts S21x64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  reduces_S21x64x512_S64x512 : S21x64x512.Reduces [0] S64x512
  reduces_S64x512_S512 : S64x512.Reduces [0] S512
  shapeCasts_S512_S1x512 : S512.ShapeCasts S1x512
  reduces_S1x512_S1 : S1x512.Reduces [1] S1
  shapeCasts_S1_S1x1 : S1.ShapeCasts S1x1
  iota_S21x64x512_d0_w32 : S21x64x512.Iotas .tc 32 [0]
  shapeCasts_S64x512_S1x64x512 : S64x512.ShapeCasts S1x64x512
  broadcasts_S1x64x512_S21x64x512 : S1x64x512.Broadcasts S21x64x512
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S16x8x128_S16x1x1_0_0_0 : S16x8x128.Slices ![0, 0, 0] S16x1x1
  shapeCasts_S16x1x1_S16 : S16x1x1.ShapeCasts S16
  bcast_S_S16 : S_.BroadcastsInDim S16 (![] : Fin 0 → Fin S16.rank)
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x64x512.size a ≤ S16x21x512x512.size a
  hwx0_0 : ∀ i : grid0.Coords, EltTy.bits .f32 = 32 ∨ (Rect.block (s := S16x21x512x512) S1x21x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S16x512x512.size a
  hwx0_1 : ∀ i : grid0.Coords, EltTy.bits .i32 = 32 ∨ (Rect.block (s := S16x512x512) S1x64x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S16x8x128.size a
  hwx0_3 : ∀ i : grid0.Coords, EltTy.bits .f32 = 32 ∨ (Rect.block (s := S16x8x128) S1x8x128.size (cc0_transform_3 i) (hinb0_3 i)).WholeWords (EltTy.packing .f32)

variable [Facts₀]

abbrev win0_0 : Pipeline.Window sig grid0 :=
  Pipeline.Window.ofSpec (Memref.whole main_arg0) S1x21x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x21x512x512 : Shape := ⟨4, ![16, 21, 512, 512]⟩
abbrev S16x512x512 : Shape := ⟨3, ![16, 512, 512]⟩
abbrev S16x1x512x512 : Shape := ⟨4, ![16, 1, 512, 512]⟩
abbrev S1x21x1x1 : Shape := ⟨4, ![1, 21, 1, 1]⟩
abbrev S_ : Shape := ⟨0, ![]⟩
abbrev S16x5505024 : Shape := ⟨2, ![16, 5505024]⟩
abbrev S16 : Shape := ⟨1, ![16]⟩

abbrev nBuf : Space → Nat
  | .hbm => 42
  | .vmem => 0
  | .smem => 0
  | _ => 0

abbrev bufTy : (tb : Table) → Fin (tcTables nBuf tb) → BufTy
  | .hbm, ⟨0, _⟩ => ⟨S16x21x512x512, .f32⟩
  | .hbm, ⟨1, _⟩ => ⟨S16x512x512, .i32⟩
  | .hbm, ⟨2, _⟩ => ⟨S16x1x512x512, .i32⟩
  | .hbm, ⟨3, _⟩ => ⟨S1x21x1x1, .i32⟩
  | .hbm, ⟨4, _⟩ => ⟨S16x21x512x512, .i32⟩
  | .hbm, ⟨5, _⟩ => ⟨S16x21x512x512, .i32⟩
  | .hbm, ⟨6, _⟩ => ⟨S16x21x512x512, .i1⟩
  | .hbm, ⟨7, _⟩ => ⟨S16x21x512x512, .f32⟩
  | .hbm, ⟨8, _⟩ => ⟨S16x21x512x512, .f32⟩
  | .hbm, ⟨9, _⟩ => ⟨S16x21x512x512, .f32⟩
  | .hbm, ⟨10, _⟩ => ⟨S_, .f32⟩
  | .hbm, ⟨11, _⟩ => ⟨S16x21x512x512, .f32⟩
  | .hbm, ⟨12, _⟩ => ⟨S16x21x512x512, .f32⟩
  | .hbm, ⟨13, _⟩ => ⟨S_, .f32⟩
  | .hbm, ⟨14, _⟩ => ⟨S16x21x512x512, .f32⟩
  | .hbm, ⟨15, _⟩ => ⟨S16x21x512x512, .f32⟩
  | .hbm, ⟨16, _⟩ => ⟨S16x5505024, .f32⟩
  | .hbm, ⟨17, _⟩ => ⟨S16x5505024, .f32⟩
  | .hbm, ⟨18, _⟩ => ⟨S16x5505024, .f32⟩
  | .hbm, ⟨19, _⟩ => ⟨S_, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_cst_9 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  bcast_S16x512x512_S16x1x512x512_0_2_3 : S16x512x512.BroadcastsInDim S16x1x512x512 (![0, 2, 3] : Fin 3 → Fin S16x1x512x512.rank)
  bcast_S16x1x512x512_S16x21x512x512_0_1_2_3 : S16x1x512x512.BroadcastsInDim S16x21x512x512 (![0, 1, 2, 3] : Fin 4 → Fin S16x21x512x512.rank)
  bcast_S1x21x1x1_S16x21x512x512_0_1_2_3 : S1x21x1x1.BroadcastsInDim S16x21x512x512 (![0, 1, 2, 3] : Fin 4 → Fin S16x21x512x512.rank)
  bcast_S_S16x21x512x512 : S_.BroadcastsInDim S16x21x512x512 (![] : Fin 0 → Fin S16x21x512x512.rank)
  shapeCasts_S16x21x512x512_S16x5505024 : S16x21x512x512.ShapeCasts S16x5505024
  reducesTo_S16x5505024_S16_d1 : S16x5505024.ReducesTo [1] S16
  h_S_ : 0 < S_.numel
  bcast_S_S16 : S_.BroadcastsInDim S16 (![] : Fin 0 → Fin S16.rank)
  reducesTo_S16_S_d0 : S16.ReducesTo [0] S_

variable [Facts₀]

class Facts : Prop extends Facts₀ where

variable [Facts]
-- ==== Proof.Spec.lean ====
/-
  The soft Dice statistics of a batch, as functions of the logits `x` (16 × 21 × 512 × 512 extended reals) and the
  labels `y` (16 × 512 × 512 words), point by point of a walk over the pixels.

  A pixel (b, h, w) carries 21 class probabilities p(b, c, h, w) = 1 / (1 + e^(-x(b, c, h, w))). The walk has 128
  points; point n = 8 b + s visits batch element b = n / 8 and the stripe s = n % 8 of its rows, rows 64 s … 64 s + 63.
  At a point two numbers are formed: the stripe's probability mass (the sum of p over the stripe's lanes, rows and
  classes, in that nesting) and the stripe's intersection (the same sum, keeping at each pixel only the class its label
  names). An accumulator per statistic is reset at the first stripe of a batch element and added to at the others; its
  value after the eighth stripe (point 8 b + 7) is the statistic of batch element b.
-/
import Idealize.ShloMosaic.PureOps.Ideal
import Idealize.ShloMosaic.Lib.ValueIdx

noncomputable section

namespace Cert.Dice

open Idealize.ShloMosaic Idealize.ShloMosaic.ValueIdx

/-- The logits' shape, the labels' shape, and the shape of a per-batch statistic. -/
abbrev SX : Shape := ⟨4, ![16, 21, 512, 512]⟩
abbrev SY : Shape := ⟨3, ![16, 512, 512]⟩
abbrev SB : Shape := ⟨1, ![16]⟩

/-- The logit index of class `ch`, row `r` of the stripe, lane `w`, at point `n`: batch element n / 8, row 64 (n % 8) + r. -/
def px (n : ℕ) (ch : Fin 21) (r : Fin 64) (w : Fin 512) : SX.Idx :=
  ix4 (⟨n / 8 % 16, Nat.mod_lt _ (by decide)⟩ : Fin 16) ch
    (⟨n % 8 * 64 + r.val, by have := r.isLt; have := Nat.mod_lt n (show 0 < 8 by decide); omega⟩ : Fin 512) w

/-- The label index of row `r` of the stripe, lane `w`, at point `n`. -/
def py (n : ℕ) (r : Fin 64) (w : Fin 512) : SY.Idx :=
  ix3 (⟨n / 8 % 16, Nat.mod_lt _ (by decide)⟩ : Fin 16)
    (⟨n % 8 * 64 + r.val, by have := r.isLt; have := Nat.mod_lt n (show 0 < 8 by decide); omega⟩ : Fin 512) w

variable (x : SX.Idx → EReal) (y : SY.Idx → BitVec 32)

/-- The probability at a logit index. -/
def prob (i : SX.Idx) : EReal := Ideal.logistic (x i)

/-- The probability mass of the stripe at point `n`: lanes outermost, then rows, then classes. -/
def stripeMass (n : ℕ) : EReal :=
  ∑ w : Fin 512, ∑ r : Fin 64, ∑ ch : Fin 21, prob x (px n ch r w)

/-- The intersection of the stripe at point `n`: at each pixel only the class its label names is kept. -/
def stripeHit (n : ℕ) : EReal :=
  ∑ w : Fin 512, ∑ r : Fin 64, ∑ ch : Fin 21,
    if BitVec.ofNat 32 ch.val = y (py n r w) then prob x (px n ch r w) else 0

/-- The mass accumulator after point `n`: reset to the stripe's mass at a first stripe (n ≡ 0 mod 8), else added to. -/
def accMass : ℕ → EReal
  | 0 => 0 + stripeMass x 0
  | n + 1 => if (n + 1) % 8 = 0 then 0 + stripeMass x (n + 1) else accMass n + stripeMass x (n + 1)

/-- The intersection accumulator after point `n`, likewise. -/
def accHit : ℕ → EReal
  | 0 => 0 + stripeHit x y 0
  | n + 1 => if (n + 1) % 8 = 0 then 0 + stripeHit x y (n + 1) else accHit n + stripeHit x y (n + 1)

/-- The probability mass of batch element `i`: the accumulator after its eighth stripe. -/
def mass (i : SB.Idx) : EReal := accMass x (8 * (i 0).val + 7)

/-- The intersection of batch element `i`. -/
def hit (i : SB.Idx) : EReal := accHit x y (8 * (i 0).val + 7)

theorem accMass_first (n : ℕ) (h : n % 8 = 0) : accMass x n = 0 + stripeMass x n := by
  cases n with
  | zero => rfl
  | succ k => exact if_pos h

theorem accMass_next (n : ℕ) (h : ¬(n + 1) % 8 = 0) : accMass x (n + 1) = accMass x n + stripeMass x (n + 1) :=
  if_neg h

theorem accHit_first (n : ℕ) (h : n % 8 = 0) : accHit x y n = 0 + stripeHit x y n := by
  cases n with
  | zero => rfl
  | succ k => exact if_pos h

theorem accHit_next (n : ℕ) (h : ¬(n + 1) % 8 = 0) : accHit x y (n + 1) = accHit x y n + stripeHit x y (n + 1) :=
  if_neg h

/-- A batch element's mass is the sum of its eight stripes' masses. -/
theorem mass_eq_sum (i : SB.Idx) : mass x i = ∑ s : Fin 8, stripeMass x (8 * (i 0).val + s.val) := by
  unfold mass
  rw [accMass_next x _ (by omega), accMass_next x _ (by omega), accMass_next x _ (by omega), accMass_next x _ (by omega),
    accMass_next x _ (by omega), accMass_next x _ (by omega), accMass_next x _ (by omega),
    accMass_first x _ (by omega), zero_add, Fin.sum_univ_eight]
  rfl

/-- A batch element's intersection is the sum of its eight stripes' intersections. -/
theorem hit_eq_sum (i : SB.Idx) : hit x y i = ∑ s : Fin 8, stripeHit x y (8 * (i 0).val + s.val) := by
  unfold hit
  rw [accHit_next x y _ (by omega), accHit_next x y _ (by omega), accHit_next x y _ (by omega), accHit_next x y _ (by omega),
    accHit_next x y _ (by omega), accHit_next x y _ (by omega), accHit_next x y _ (by omega),
    accHit_first x y _ (by omega), zero_add, Fin.sum_univ_eight]
  rfl

end Cert.Dice

end
-- ==== Proof.Score.lean ====
/-
  The loss from the three per-batch statistics: with A the intersections, B the probability masses and C the label
  counts of the 16 batch elements, the loss is 1 - (0 + ∑ over the batch of 2 (A + 1) / ((B + C) + 1)) / 16. Both
  programs end in this expression; it is stated once, over the extended reals, and never opened.
-/
import Idealize.ShloMosaic.PureOps
import Idealize.ShloMosaic.PureOps.Ideal
import proofs.«128953_j25632364822677_2_alg».proof.Proof.Spec

noncomputable section

namespace Cert.Dice

open Idealize.ShloMosaic

/-- The shape of the loss: a scalar. -/
abbrev S0 : Shape := ⟨0, ![]⟩

/-- The loss as both programs spell it, from the statistics `A`, `B`, `C`. -/
def score (hb : S0.BroadcastsInDim SB (![] : Fin 0 → Fin SB.rank)) (hr : SB.ReducesTo [0] S0) (h0 : 0 < S0.numel)
    (A B C : FVec Ideal SB .f32) : FVec Ideal S0 .f32 :=
  subf (constant (F := Ideal) S0 .f32 0x3F800000#32)
    (Host.divf (F := Ideal)
      (Host.reduceAdd (F := Ideal)
        (Host.divf (F := Ideal)
          (mulf (broadcastInDim SB ![] hb (constant (F := Ideal) S0 .f32 0x40000000#32))
            (addf A (broadcastInDim SB ![] hb (constant (F := Ideal) S0 .f32 0x3F800000#32))))
          (addf (addf B C) (broadcastInDim SB ![] hb (constant (F := Ideal) S0 .f32 0x3F800000#32))))
        (constant (F := Ideal) S0 .f32 0x00000000#32) hr h0)
      (constant (F := Ideal) S0 .f32 0x41800000#32))

end Cert.Dice

end
-- ==== Proof.Stripe.lean ====
/-
  The body's arithmetic on one stripe, read at an index over the extended reals.

  A stripe is a [21, 64, 512] block of probabilities (classes, rows, lanes). The body sums it over the classes, then
  over the rows, then over the lanes, and spreads the one number over an [8, 128] tile: every entry of the tile is
  the sum over lanes, rows and classes, in that nesting. The intersection is the same total of the block in which
  every entry whose class is not its pixel's label has been replaced by zero.
-/
import proofs.«128953_j25632364822677_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«128953_j25632364822677_2_alg».proof.Proof.Spec

noncomputable section

namespace Cert.KernelIdeal.Stripe

open Cert.KernelIdeal Cert.KernelIdeal.Gen Idealize.ShloMosaic Idealize.ShloMosaic.ValueIdx

variable {F : FTy → Type} [FloatOps F]

/-- The total of a [21, 64, 512] block spread over an [8, 128] tile: classes, then rows, then lanes. -/
def total (v : FVec F S21x64x512 .f32) : FVec F S8x128 .f32 :=
  broadcastTo S8x128 (shapeCast S1x1 (shapeCast S1x1 (multiReduction .add [1] S1 (shapeCast S1x512
    (multiReduction .add [0] S512 (multiReduction .add [0] S64x512 v 0x00000000#32 Gen.reduces_S21x64x512_S64x512 (.inl rfl) rfl)
      0x00000000#32 Gen.reduces_S64x512_S512 (.inl rfl) rfl) Gen.shapeCasts_S512_S1x512)
    0x00000000#32 Gen.reduces_S1x512_S1 (.inl rfl) rfl) Gen.shapeCasts_S1_S1x1) Gen.shapeCasts_S1x1_S1x1) Gen.broadcasts_S1x1_S8x128

/-- The block of probabilities of a loaded stripe of logits. -/
theorem pay6_apply (v3 : Vec Ideal S1x21x64x512 .f32) (ch : Fin 21) (r : Fin 64) (w : Fin 512) :
    k0_pay6 (F := Ideal) v3 (ix3 ch r w) = Ideal.logistic (v3 (ix4 (0 : Fin 1) ch r w)) := by
  unfold k0_pay6
  show Ideal.logistic (shapeCast S21x64x512 v3 _ (ix3 ch r w)) = _
  rw [shapeCast_1abc_abc_apply]

theorem pay8_eq (v3 : Vec F S1x21x64x512 .f32) : k0_pay8 v3 = total (k0_pay6 v3) := rfl

/-- The total read at an entry of the tile: the sum over lanes, rows and classes. -/
theorem total_apply (v : FVec Ideal S21x64x512 .f32) (j : S8x128.Idx) :
    total v j = ∑ w : Fin 512, ∑ r : Fin 64, ∑ ch : Fin 21, v (ix3 ch r w) := by
  unfold total
  refine (broadcastTo_apply _ _ j (ix2 (0 : Fin 1) (0 : Fin 1)) (fun a => by match a with | ⟨0, _⟩ => rfl | ⟨1, _⟩ => rfl)).trans ?_
  rw [shapeCast_self]
  refine (shapeCast_apply _ _ _ (ix1 (0 : Fin 1)) (by rw [Shape.rowMajor_val_two, Shape.rowMajor_val_one]; rfl)).trans ?_
  refine (Ideal.multiReduction_add_single _ _ _ _ _ (ix1 (0 : Fin 1))).trans ?_
  refine Finset.sum_congr rfl fun w _ => ?_
  refine (shapeCast_apply _ _ _ (ix1 (w : Fin 512)) (by
    rw [Shape.rowMajor_val_two, Shape.rowMajor_val_one]
    show w.val = 0 * 512 + w.val
    omega)).trans ?_
  refine (Ideal.multiReduction_add_single _ _ _ _ _ (ix1 (w : Fin 512))).trans ?_
  refine Finset.sum_congr rfl fun r _ => ?_
  refine (Ideal.multiReduction_add_single _ _ _ _ _ _).trans ?_
  refine Finset.sum_congr rfl fun ch _ => ?_
  exact congrArg v (funext fun a => Fin.ext (by match a with | ⟨0, _⟩ => rfl | ⟨1, _⟩ => rfl | ⟨2, _⟩ => rfl))

/-- The block of probabilities with every entry whose class is not its pixel's label replaced by zero. -/
def masked (v3 : Vec F S1x21x64x512 .f32) (v5 : Vec F S1x64x512 .i32) : FVec F S21x64x512 .f32 :=
  select (cmpi .eq (iota .tc S21x64x512 32 [0] Gen.iota_S21x64x512_d0_w32)
      (broadcastTo S21x64x512 (shapeCast S1x64x512 (shapeCast S64x512 v5 Gen.shapeCasts_S1x64x512_S64x512) Gen.shapeCasts_S64x512_S1x64x512)
        Gen.broadcasts_S1x64x512_S21x64x512))
    (k0_pay6 v3) (broadcast S21x64x512 (Scalar.ofBits .f32 0x00000000#32))

/-- The accumulator's new contents: its old contents plus the masked block's total. -/
theorem pay7_eq (v3 : Vec F S1x21x64x512 .f32) (v5 : Vec F S1x64x512 .i32) (v24 : Vec F S8x128 .f32) :
    k0_pay7 v3 v5 v24 = addf v24 (total (masked v3 v5)) := by
  unfold k0_pay7
  dsimp only
  rw [shapeCast_self]
  rfl

/-- The second accumulator's new contents: its old contents plus the block's total. -/
theorem pay1_eq (v31 : Vec F S8x128 .f32) (v33 : FVec F S8x128 .f32) : k0_pay1 v31 v33 = addf v31 v33 := by
  unfold k0_pay1
  dsimp only
  rw [shapeCast_self]

/-- The reset value of either accumulator: the zero tile. -/
theorem pay4_eq : k0_pay4 (F := F) = broadcast S8x128 (Scalar.ofBits .f32 0x00000000#32) := by
  unfold k0_pay4
  dsimp only
  rw [shapeCast_self]

theorem pay5_eq : k0_pay5 (F := F) = broadcast S8x128 (Scalar.ofBits .f32 0x00000000#32) := by
  unfold k0_pay5
  dsimp only
  rw [shapeCast_self]

/-- An [8, 128] tile handed to a [1, 8, 128] output block keeps its entries. -/
theorem pay2_apply (v : Vec F S8x128 .f32) (u : Fin 1) (i : Fin 8) (j : Fin 128) : k0_pay2 v (ix3 u i j) = v (ix2 i j) := by
  unfold k0_pay2
  exact shapeCast_ab_1ab_apply v _ u i j

theorem pay3_apply (v : Vec F S8x128 .f32) (u : Fin 1) (i : Fin 8) (j : Fin 128) : k0_pay3 v (ix3 u i j) = v (ix2 i j) := by
  unfold k0_pay3
  exact shapeCast_ab_1ab_apply v _ u i j

/-- A select on an equality test of two words. -/
theorem select_eq {α : Type} (a b : BitVec 32) (p q : α) :
    Scalar.select (IntOp.cmpi .eq a b) p q = if a = b then p else q := by
  show (if BitVec.ofBool (a == b) = 1#1 then p else q) = _
  by_cases h : a = b
  · rw [if_pos h, if_pos (by subst h; simp)]
  · have hb : (a == b) = false := by simpa using h
    rw [if_neg h, if_neg (by rw [hb]; decide)]

/-- The masked block at (class, row, lane): the probability where the class is the pixel's label, else zero. -/
theorem masked_apply (v3 : Vec Ideal S1x21x64x512 .f32) (v5 : Vec Ideal S1x64x512 .i32) (ch : Fin 21) (r : Fin 64) (w : Fin 512) :
    masked (F := Ideal) v3 v5 (ix3 ch r w)
      = if BitVec.ofNat 32 ch.val = v5 (ix3 (0 : Fin 1) r w) then Ideal.logistic (v3 (ix4 (0 : Fin 1) ch r w)) else 0 := by
  unfold masked
  rw [shapeCast_shapeCast]
  show Scalar.select (IntOp.cmpi .eq (BitVec.ofNat 32 (0 * 21 + ch.val)) (broadcastTo S21x64x512 v5 _ (ix3 ch r w)))
    (k0_pay6 v3 (ix3 ch r w)) (Ideal.ofBits .f32 0x00000000#32) = _
  rw [pay6_apply, Ideal.ofBits_zero_f32, Nat.zero_mul, Nat.zero_add, select_eq]
  rw [broadcastTo_apply v5 _ (ix3 ch r w) (ix3 (0 : Fin 1) r w) (fun a => by
    match a with | ⟨0, _⟩ => rfl | ⟨1, _⟩ => rfl | ⟨2, _⟩ => rfl)]

open Cert.Dice in
/-- The total of a stripe's probabilities is the stripe's mass, when the loaded block is the stripe of the logits. -/
theorem stripe_mass (v3 : Vec Ideal S1x21x64x512 .f32) (x : SX.Idx → EReal) (n : ℕ)
    (h3 : ∀ ch r w, v3 (ix4 (0 : Fin 1) ch r w) = x (px n ch r w)) (j : S8x128.Idx) :
    total (k0_pay6 (F := Ideal) v3) j = stripeMass x n := by
  rw [total_apply]
  unfold stripeMass prob
  exact Finset.sum_congr rfl fun w _ => Finset.sum_congr rfl fun r _ => Finset.sum_congr rfl fun ch _ => by
    rw [pay6_apply, h3]

open Cert.Dice in
/-- The total of the masked block is the stripe's intersection, when the loaded blocks are the stripe of the logits and of the labels. -/
theorem stripe_hit (v3 : Vec Ideal S1x21x64x512 .f32) (v5 : Vec Ideal S1x64x512 .i32) (x : SX.Idx → EReal) (y : SY.Idx → BitVec 32)
    (n : ℕ) (h3 : ∀ ch r w, v3 (ix4 (0 : Fin 1) ch r w) = x (px n ch r w)) (h5 : ∀ r w, v5 (ix3 (0 : Fin 1) r w) = y (py n r w))
    (j : S8x128.Idx) : total (masked (F := Ideal) v3 v5) j = stripeHit x y n := by
  rw [total_apply]
  unfold stripeHit prob
  exact Finset.sum_congr rfl fun w _ => Finset.sum_congr rfl fun r _ => Finset.sum_congr rfl fun ch _ => by
    rw [masked_apply, h3, h5]

/-- The zero tile has every entry zero. -/
theorem pay4_zero : k0_pay4 (F := Ideal) = fun _ => (0 : EReal) := by
  rw [pay4_eq]
  funext j
  exact Ideal.ofBits_zero_f32

theorem pay5_zero : k0_pay5 (F := Ideal) = fun _ => (0 : EReal) := by
  rw [pay5_eq]
  funext j
  exact Ideal.ofBits_zero_f32

open Cert.Dice in
/-- One step of the intersection accumulator: from a tile holding `a` everywhere to one holding `a` plus the stripe's
    intersection everywhere. -/
theorem hit_step (v3 : Vec Ideal S1x21x64x512 .f32) (v5 : Vec Ideal S1x64x512 .i32) (prev : Vec Ideal S8x128 .f32)
    (x : SX.Idx → EReal) (y : SY.Idx → BitVec 32) (n : ℕ)
    (h3 : ∀ ch r w, v3 (ix4 (0 : Fin 1) ch r w) = x (px n ch r w)) (h5 : ∀ r w, v5 (ix3 (0 : Fin 1) r w) = y (py n r w))
    (a : EReal) (hp : prev = fun _ => a) :
    k0_pay7 (F := Ideal) v3 v5 prev = fun _ => a + stripeHit x y n := by
  subst hp
  rw [pay7_eq]
  funext j
  show a + total (masked (F := Ideal) v3 v5) j = _
  rw [stripe_hit v3 v5 x y n h3 h5 j]

open Cert.Dice in
/-- One step of the mass accumulator. -/
theorem mass_step (v3 : Vec Ideal S1x21x64x512 .f32) (prev : Vec Ideal S8x128 .f32) (x : SX.Idx → EReal) (n : ℕ)
    (h3 : ∀ ch r w, v3 (ix4 (0 : Fin 1) ch r w) = x (px n ch r w)) (a : EReal) (hp : prev = fun _ => a) :
    k0_pay1 (F := Ideal) prev (k0_pay8 v3) = fun _ => a + stripeMass x n := by
  subst hp
  rw [pay1_eq, pay8_eq]
  funext j
  show a + total (k0_pay6 (F := Ideal) v3) j = _
  rw [stripe_mass v3 x n h3 j]

end Cert.KernelIdeal.Stripe

end
-- ==== Proof.Cases.lean ====
/-
  What one run of the body leaves in the two accumulators and, at a batch element's last stripe, in the two output
  blocks — per case of the body's two conditionals, as the body's own arithmetic of what it loaded.

  First stripe of a batch element: both accumulators are reset to the zero tile and then added to. Any later stripe:
  each accumulator is its contents after the stripe before plus this stripe's total. Last stripe: as a later stripe,
  and each output block receives its accumulator's new contents.
-/
import proofs.«128953_j25632364822677_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later stripe: the intersection accumulator is its old contents plus the masked total. -/
theorem sout_B_0 (c : Dev nD) (i : grid0.Coords) (a2 : Memref sig .tc .vmem S1x21x64x512 .f32) (h2 : a2.IsWhole) (a3 : Memref sig .tc .vmem S1x64x512 .i32) (h3 : a3.IsWhole) (a4 : Memref sig .tc .vmem S1x8x128 .f32) (h4 : a4.IsWhole) (a5 : Memref sig .tc .vmem S1x8x128 .f32) (h5 : a5.IsWhole) (a6 : Memref sig .tc .vmem S8x128 .f32) (h6 : a6.IsWhole) (a7 : Memref sig .tc .vmem S8x128 .f32) (h7 : a7.IsWhole) (hc0 : ¬cond0_0 i) (hc1 : ¬cond0_1 i) (x0 : Vec F S1x21x64x512 .f32) (x1 : Vec F S1x64x512 .i32) (xs0 xs1 : Vec F S8x128 .f32) :
    sout0_B_0 c i a2 h2 a3 h3 a4 h4 a5 h5 a6 h6 a7 h7 hc0 hc1 x0 x1 xs0 xs1 = k0_pay7 x0 x1 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  rw [View.canon_unit_zero hz2]
  simp only [View.readAt_eq_ld, h2.read_unread, h3.read_unread, h6.read_unread, h7.read_unread,
    View.ld_unit_zero (S := S1x21x64x512) hz4, View.ld_unit_zero (S := S1x64x512) hz3, View.ld_unit_zero (S := S8x128) hz2]

/-- A later stripe: the mass accumulator is its old contents plus the total. -/
theorem sout_B_1 (c : Dev nD) (i : grid0.Coords) (a2 : Memref sig .tc .vmem S1x21x64x512 .f32) (h2 : a2.IsWhole) (a3 : Memref sig .tc .vmem S1x64x512 .i32) (h3 : a3.IsWhole) (a4 : Memref sig .tc .vmem S1x8x128 .f32) (h4 : a4.IsWhole) (a5 : Memref sig .tc .vmem S1x8x128 .f32) (h5 : a5.IsWhole) (a6 : Memref sig .tc .vmem S8x128 .f32) (h6 : a6.IsWhole) (a7 : Memref sig .tc .vmem S8x128 .f32) (h7 : a7.IsWhole) (hc0 : ¬cond0_0 i) (hc1 : ¬cond0_1 i) (x0 : Vec F S1x21x64x512 .f32) (x1 : Vec F S1x64x512 .i32) (xs0 xs1 : Vec F S8x128 .f32) :
    sout0_B_1 c i a2 h2 a3 h3 a4 h4 a5 h5 a6 h6 a7 h7 hc0 hc1 x0 x1 xs0 xs1 = k0_pay1 xs1 (k0_pay8 x0) := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h3.read_unread, h6.read_unread, h7.read_unread,
    View.ld_unit_zero (S := S1x21x64x512) hz4, View.ld_unit_zero (S := S1x64x512) hz3, View.ld_unit_zero (S := S8x128) hz2]

/-- The last stripe: the accumulators as at a later stripe. -/
theorem sout_C_0 (c : Dev nD) (i : grid0.Coords) (a2 : Memref sig .tc .vmem S1x21x64x512 .f32) (h2 : a2.IsWhole) (a3 : Memref sig .tc .vmem S1x64x512 .i32) (h3 : a3.IsWhole) (a4 : Memref sig .tc .vmem S1x8x128 .f32) (h4 : a4.IsWhole) (a5 : Memref sig .tc .vmem S1x8x128 .f32) (h5 : a5.IsWhole) (a6 : Memref sig .tc .vmem S8x128 .f32) (h6 : a6.IsWhole) (a7 : Memref sig .tc .vmem S8x128 .f32) (h7 : a7.IsWhole) (hc0 : ¬cond0_0 i) (hc1 : cond0_1 i) (x0 : Vec F S1x21x64x512 .f32) (x1 : Vec F S1x64x512 .i32) (xs0 xs1 : Vec F S8x128 .f32) :
    sout0_C_0 c i a2 h2 a3 h3 a4 h4 a5 h5 a6 h6 a7 h7 hc0 hc1 x0 x1 xs0 xs1 = k0_pay7 x0 x1 xs0 := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h6.read_unread, h7.read_unread,
    View.ld_unit_zero (S := S1x21x64x512) hz4, View.ld_unit_zero (S := S1x64x512) hz3, View.ld_unit_zero (S := S8x128) hz2]

theorem sout_C_1 (c : Dev nD) (i : grid0.Coords) (a2 : Memref sig .tc .vmem S1x21x64x512 .f32) (h2 : a2.IsWhole) (a3 : Memref sig .tc .vmem S1x64x512 .i32) (h3 : a3.IsWhole) (a4 : Memref sig .tc .vmem S1x8x128 .f32) (h4 : a4.IsWhole) (a5 : Memref sig .tc .vmem S1x8x128 .f32) (h5 : a5.IsWhole) (a6 : Memref sig .tc .vmem S8x128 .f32) (h6 : a6.IsWhole) (a7 : Memref sig .tc .vmem S8x128 .f32) (h7 : a7.IsWhole) (hc0 : ¬cond0_0 i) (hc1 : cond0_1 i) (x0 : Vec F S1x21x64x512 .f32) (x1 : Vec F S1x64x512 .i32) (xs0 xs1 : Vec F S8x128 .f32) :
    sout0_C_1 c i a2 h2 a3 h3 a4 h4 a5 h5 a6 h6 a7 h7 hc0 hc1 x0 x1 xs0 xs1 = k0_pay1 xs1 (k0_pay8 x0) := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h6.read_unread, h7.read_unread,
    View.ld_unit_zero (S := S1x21x64x512) hz4, View.ld_unit_zero (S := S1x64x512) hz3, View.ld_unit_zero (S := S8x128) hz2]

/-- The last stripe: the first output block receives the intersection accumulator's new contents. -/
theorem out_C_2 (c : Dev nD) (i : grid0.Coords) (a2 : Memref sig .tc .vmem S1x21x64x512 .f32) (h2 : a2.IsWhole) (a3 : Memref sig .tc .vmem S1x64x512 .i32) (h3 : a3.IsWhole) (a4 : Memref sig .tc .vmem S1x8x128 .f32) (h4 : a4.IsWhole) (a5 : Memref sig .tc .vmem S1x8x128 .f32) (h5 : a5.IsWhole) (a6 : Memref sig .tc .vmem S8x128 .f32) (h6 : a6.IsWhole) (a7 : Memref sig .tc .vmem S8x128 .f32) (h7 : a7.IsWhole) (hc0 : ¬cond0_0 i) (hc1 : cond0_1 i) (x0 : Vec F S1x21x64x512 .f32) (x1 : Vec F S1x64x512 .i32) (xs0 xs1 : Vec F S8x128 .f32) :
    out0_C_2 c i a2 h2 a3 h3 a4 h4 a5 h5 a6 h6 a7 h7 hc0 hc1 x0 x1 xs0 xs1 = k0_pay2 (k0_pay7 x0 x1 xs0) := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz3, View.readCov_unit_zero (S := S8x128) _ hz2]
  simp only [View.readAt_eq_ld, h2.read_unread, h3.read_unread, h6.read_unread, h7.read_unread,
    View.ld_unit_zero (S := S1x21x64x512) hz4, View.ld_unit_zero (S := S1x64x512) hz3, View.ld_unit_zero (S := S8x128) hz2]

/-- The last stripe: the second output block receives the mass accumulator's new contents. -/
theorem out_C_3 (c : Dev nD) (i : grid0.Coords) (a2 : Memref sig .tc .vmem S1x21x64x512 .f32) (h2 : a2.IsWhole) (a3 : Memref sig .tc .vmem S1x64x512 .i32) (h3 : a3.IsWhole) (a4 : Memref sig .tc .vmem S1x8x128 .f32) (h4 : a4.IsWhole) (a5 : Memref sig .tc .vmem S1x8x128 .f32) (h5 : a5.IsWhole) (a6 : Memref sig .tc .vmem S8x128 .f32) (h6 : a6.IsWhole) (a7 : Memref sig .tc .vmem S8x128 .f32) (h7 : a7.IsWhole) (hc0 : ¬cond0_0 i) (hc1 : cond0_1 i) (x0 : Vec F S1x21x64x512 .f32) (x1 : Vec F S1x64x512 .i32) (xs0 xs1 : Vec F S8x128 .f32) :
    out0_C_3 c i a2 h2 a3 h3 a4 h4 a5 h5 a6 h6 a7 h7 hc0 hc1 x0 x1 xs0 xs1 = k0_pay3 (k0_pay1 xs1 (k0_pay8 x0)) := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz3, View.readCov_unit_zero (S := S8x128) _ hz2]
  simp only [View.readAt_eq_ld, h2.read_unread, h3.read_unread, h6.read_unread, h7.read_unread,
    View.ld_unit_zero (S := S1x21x64x512) hz4, View.ld_unit_zero (S := S1x64x512) hz3, View.ld_unit_zero (S := S8x128) hz2]

/-- The first stripe: the intersection accumulator is the zero tile plus the masked total. -/
theorem sout_A_0 (c : Dev nD) (i : grid0.Coords) (a2 : Memref sig .tc .vmem S1x21x64x512 .f32) (h2 : a2.IsWhole) (a3 : Memref sig .tc .vmem S1x64x512 .i32) (h3 : a3.IsWhole) (a4 : Memref sig .tc .vmem S1x8x128 .f32) (h4 : a4.IsWhole) (a5 : Memref sig .tc .vmem S1x8x128 .f32) (h5 : a5.IsWhole) (a6 : Memref sig .tc .vmem S8x128 .f32) (h6 : a6.IsWhole) (a7 : Memref sig .tc .vmem S8x128 .f32) (h7 : a7.IsWhole) (hc0 : cond0_0 i) (hc1 : ¬cond0_1 i) (x0 : Vec F S1x21x64x512 .f32) (x1 : Vec F S1x64x512 .i32) :
    sout0_A_0 c i a2 h2 a3 h3 a4 h4 a5 h5 a6 h6 a7 h7 hc0 hc1 x0 x1 = k0_pay7 x0 x1 k0_pay4 := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S8x128) hz2, View.readCov_unit_zero (S := S8x128) _ hz2]
  simp only [View.readAt_eq_ld, h2.read_unread, h3.read_unread, h6.read_unread, h7.read_unread,
    View.ld_unit_zero (S := S1x21x64x512) hz4, View.ld_unit_zero (S := S1x64x512) hz3, View.ld_unit_zero (S := S8x128) hz2]

/-- The first stripe: the mass accumulator is the zero tile plus the total. -/
theorem sout_A_1 (c : Dev nD) (i : grid0.Coords) (a2 : Memref sig .tc .vmem S1x21x64x512 .f32) (h2 : a2.IsWhole) (a3 : Memref sig .tc .vmem S1x64x512 .i32) (h3 : a3.IsWhole) (a4 : Memref sig .tc .vmem S1x8x128 .f32) (h4 : a4.IsWhole) (a5 : Memref sig .tc .vmem S1x8x128 .f32) (h5 : a5.IsWhole) (a6 : Memref sig .tc .vmem S8x128 .f32) (h6 : a6.IsWhole) (a7 : Memref sig .tc .vmem S8x128 .f32) (h7 : a7.IsWhole) (hc0 : cond0_0 i) (hc1 : ¬cond0_1 i) (x0 : Vec F S1x21x64x512 .f32) (x1 : Vec F S1x64x512 .i32) :
    sout0_A_1 c i a2 h2 a3 h3 a4 h4 a5 h5 a6 h6 a7 h7 hc0 hc1 x0 x1 = k0_pay1 k0_pay5 (k0_pay8 x0) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S8x128) hz2, View.readCov_unit_zero (S := S8x128) _ hz2]
  simp only [View.readAt_eq_ld, h2.read_unread, h3.read_unread, h6.read_unread, h7.read_unread,
    View.ld_unit_zero (S := S1x21x64x512) hz4, View.ld_unit_zero (S := S1x64x512) hz3, View.ld_unit_zero (S := S8x128) hz2]

end Cert.KernelIdeal.Cases

end
-- ==== Proof.Blocks.lean ====
/-
  The kernel's input blocks as slices of the arrays. At walk point t the logits' block is batch element t / 8, all 21
  classes, rows 64 (t % 8) … 64 (t % 8) + 63, all 512 lanes; the labels' block is the same pixels. A block's coordinate
  along an axis is the block index times the block's size plus the coordinate inside the block.
-/
import proofs.«128953_j25632364822677_2_alg».proof.Proof.Gen.KernelIdeal.Frame.Runs
import proofs.«128953_j25632364822677_2_alg».proof.Proof.Spec
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F] (m : (ℓ : Loc nD τ sig) → Buf (Elt F) ℓ)

/-- The logits' block index at point t: batch element t / 8, stripe t % 8. -/
theorem index0 : ∀ t : Fin cfg0.N,
    win0_0.index t 0 = t.val / 8 ∧ win0_0.index t 1 = 0 ∧ win0_0.index t 2 = t.val % 8 ∧ win0_0.index t 3 = 0 :=
  (by decide +kernel : ∀ t : Fin grid0.N,
    win0_0.index t 0 = t.val / 8 ∧ win0_0.index t 1 = 0 ∧ win0_0.index t 2 = t.val % 8 ∧ win0_0.index t 3 = 0)

/-- The labels' block index at point t. -/
theorem index1 : ∀ t : Fin cfg0.N,
    win0_1.index t 0 = t.val / 8 ∧ win0_1.index t 1 = t.val % 8 ∧ win0_1.index t 2 = 0 :=
  (by decide +kernel : ∀ t : Fin grid0.N,
    win0_1.index t 0 = t.val / 8 ∧ win0_1.index t 1 = t.val % 8 ∧ win0_1.index t 2 = 0)

/-- The logits' block at point t, read at class ch, row r, lane w, is the logit the walk visits there. -/
theorem logits_block (c : Dev nD) (t : Fin cfg0.N) (ch : Fin 21) (r : Fin 64) (w : Fin 512) :
    (iblk m c 0 t : Vec F S1x21x64x512 .f32) (ix4 (0 : Fin 1) ch r w)
      = m ((c : Thread nD τ).loc main_arg0) (Cert.Dice.px t.val ch r w) := by
  have hN : cfg0.N = 128 := N_0
  have ht : t.val < 128 := hN ▸ t.isLt
  have h3 := r.isLt
  obtain ⟨i0, i1, i2, i3⟩ := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 8 % 16; rw [i0]; omega
  | ⟨1, _⟩ => show win0_0.index t 1 * 21 + 1 * ch.val = ch.val; rw [i1]; omega
  | ⟨2, _⟩ => show win0_0.index t 2 * 64 + 1 * r.val = t.val % 8 * 64 + r.val; rw [i2]; omega
  | ⟨3, _⟩ => show win0_0.index t 3 * 512 + 1 * w.val = w.val; rw [i3]; omega

/-- The labels' block at point t, read at row r, lane w, is the label of the pixel the walk visits there. -/
theorem labels_block (c : Dev nD) (t : Fin cfg0.N) (r : Fin 64) (w : Fin 512) :
    (iblk m c 1 t : Vec F S1x64x512 .i32) (ix3 (0 : Fin 1) r w)
      = m ((c : Thread nD τ).loc main_arg1) (Cert.Dice.py t.val r w) := by
  have hN : cfg0.N = 128 := N_0
  have ht : t.val < 128 := hN ▸ t.isLt
  have h3 := r.isLt
  obtain ⟨i0, i1, i2⟩ := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 8 % 16; rw [i0]; omega
  | ⟨1, _⟩ => show win0_1.index t 1 * 64 + 1 * r.val = t.val % 8 * 64 + r.val; rw [i1]; omega
  | ⟨2, _⟩ => show win0_1.index t 2 * 512 + 1 * w.val = w.val; rw [i2]; omega

end Cert.KernelIdeal.Blocks

end
-- ==== Proof.Accum.lean ====
/-
  The two accumulators point by point: after point n the intersection accumulator holds, at every entry of its
  [8, 128] tile, the intersection accumulated over the stripes of the current batch element up to n, and the mass
  accumulator the mass likewise — by induction on the point. At a batch element's last stripe the two output blocks
  hold the same numbers.
-/
import proofs.«128953_j25632364822677_2_alg».proof.Proof.Gen.KernelIdeal.Frame
import proofs.«128953_j25632364822677_2_alg».proof.Proof.Spec
import proofs.«128953_j25632364822677_2_alg».proof.Proof.Stripe
import proofs.«128953_j25632364822677_2_alg».proof.Proof.Cases
import proofs.«128953_j25632364822677_2_alg».proof.Proof.Blocks

noncomputable section

namespace Cert.KernelIdeal.Accum

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The logits and the labels core `c` is launched with. -/
abbrev X (c : Dev nD) : Cert.Dice.SX.Idx → EReal := m ((c : Thread nD τ).loc main_arg0)
abbrev Y (c : Dev nD) : Cert.Dice.SY.Idx → BitVec 32 := m ((c : Thread nD τ).loc main_arg1)

/-- After point `n` both accumulators hold their running statistic at every entry. -/
theorem acc_eq (c : Dev nD) : ∀ (n : ℕ) (hn : n < cfg0.N),
    (outsAt0 m c n hn).2.2.1 = (fun _ => Cert.Dice.accHit (X m c) (Y m c) n)
    ∧ (outsAt0 m c n hn).2.2.2 = (fun _ => Cert.Dice.accMass (X m c) n)
  | 0, hn => by
    rw [outsAt0_A m c ⟨0, hn⟩ rfl (by dsimp only; omega)]
    dsimp only
    rw [Cases.sout_A_0, Cases.sout_A_1]
    exact ⟨Stripe.hit_step (iblk m c 0 ⟨0, hn⟩) (iblk m c 1 ⟨0, hn⟩) _ (X m c) (Y m c) 0
        (fun ch r w => Blocks.logits_block m c ⟨0, hn⟩ ch r w) (fun r w => Blocks.labels_block m c ⟨0, hn⟩ r w) 0 Stripe.pay4_zero,
      Stripe.mass_step (iblk m c 0 ⟨0, hn⟩) _ (X m c) 0 (fun ch r w => Blocks.logits_block m c ⟨0, hn⟩ ch r w) 0 Stripe.pay5_zero⟩
  | n + 1, hn => by
    have hN : cfg0.N = 128 := N_0
    have ih := acc_eq c n (Nat.lt_of_succ_lt hn)
    by_cases h0 : (n + 1) % 8 = 0
    · rw [outsAt0_A m c ⟨n + 1, hn⟩ h0 (by dsimp only; omega)]
      dsimp only
      rw [Cases.sout_A_0, Cases.sout_A_1, Cert.Dice.accHit_first _ _ _ h0, Cert.Dice.accMass_first _ _ h0]
      exact ⟨Stripe.hit_step (iblk m c 0 ⟨n + 1, hn⟩) (iblk m c 1 ⟨n + 1, hn⟩) _ (X m c) (Y m c) (n + 1)
          (fun ch r w => Blocks.logits_block m c ⟨n + 1, hn⟩ ch r w) (fun r w => Blocks.labels_block m c ⟨n + 1, hn⟩ r w) 0 Stripe.pay4_zero,
        Stripe.mass_step (iblk m c 0 ⟨n + 1, hn⟩) _ (X m c) (n + 1) (fun ch r w => Blocks.logits_block m c ⟨n + 1, hn⟩ ch r w) 0 Stripe.pay5_zero⟩
    · by_cases h1 : (n + 1) % 8 = 7
      · rw [outsAt0_C m c ⟨n + 1, hn⟩ h0 h1]
        dsimp only
        rw [Cases.sout_C_0, Cases.sout_C_1, Cert.Dice.accHit_next _ _ _ h0, Cert.Dice.accMass_next _ _ h0]
        exact ⟨Stripe.hit_step (iblk m c 0 ⟨n + 1, hn⟩) (iblk m c 1 ⟨n + 1, hn⟩) _ (X m c) (Y m c) (n + 1)
            (fun ch r w => Blocks.logits_block m c ⟨n + 1, hn⟩ ch r w) (fun r w => Blocks.labels_block m c ⟨n + 1, hn⟩ r w) _ ih.1,
          Stripe.mass_step (iblk m c 0 ⟨n + 1, hn⟩) _ (X m c) (n + 1) (fun ch r w => Blocks.logits_block m c ⟨n + 1, hn⟩ ch r w) _ ih.2⟩
      · rw [outsAt0_B m c ⟨n + 1, hn⟩ h0 h1]
        dsimp only
        rw [Cases.sout_B_0, Cases.sout_B_1, Cert.Dice.accHit_next _ _ _ h0, Cert.Dice.accMass_next _ _ h0]
        exact ⟨Stripe.hit_step (iblk m c 0 ⟨n + 1, hn⟩) (iblk m c 1 ⟨n + 1, hn⟩) _ (X m c) (Y m c) (n + 1)
            (fun ch r w => Blocks.logits_block m c ⟨n + 1, hn⟩ ch r w) (fun r w => Blocks.labels_block m c ⟨n + 1, hn⟩ r w) _ ih.1,
          Stripe.mass_step (iblk m c 0 ⟨n + 1, hn⟩) _ (X m c) (n + 1) (fun ch r w => Blocks.logits_block m c ⟨n + 1, hn⟩ ch r w) _ ih.2⟩

/-- At a batch element's last stripe the first output block holds the batch element's intersection at every entry. -/
theorem out2_eq (c : Dev nD) (t : Fin cfg0.N) (h7 : t.val % 8 = 7) (u : Fin 1) (i : Fin 8) (j : Fin 128) :
    (outsAt0 m c t.val t.isLt).1 (ix3 u i j) = Cert.Dice.accHit (X m c) (Y m c) t.val := by
  have h0 : ¬t.val % 8 = 0 := by omega
  have hacc := (acc_eq m c t.val t.isLt).1
  rw [outsAt0_C m c t h0 h7] at hacc ⊢
  dsimp only at hacc ⊢
  rw [Cases.out_C_2, Stripe.pay2_apply]
  rw [Cases.sout_C_0] at hacc
  rw [hacc]

/-- … and the second output block the batch element's mass. -/
theorem out3_eq (c : Dev nD) (t : Fin cfg0.N) (h7 : t.val % 8 = 7) (u : Fin 1) (i : Fin 8) (j : Fin 128) :
    (outsAt0 m c t.val t.isLt).2.1 (ix3 u i j) = Cert.Dice.accMass (X m c) t.val := by
  have h0 : ¬t.val % 8 = 0 := by omega
  have hacc := (acc_eq m c t.val t.isLt).2
  rw [outsAt0_C m c t h0 h7] at hacc ⊢
  dsimp only at hacc ⊢
  rw [Cases.out_C_3, Stripe.pay3_apply]
  rw [Cases.sout_C_1] at hacc
  rw [hacc]

end Cert.KernelIdeal.Accum

end
-- ==== Proof.Final.lean ====
/-
  The two output arrays after the run. Output block (b, 0, 0) of either [16, 8, 128] array is written back once, at
  batch element b's last stripe (point 8 b + 7), and holds the batch element's statistic at every entry; the sixteen
  blocks tile the array. So every entry (b, i, j) of the first array is the intersection of batch element b, and of
  the second its probability mass.
-/
import proofs.«128953_j25632364822677_2_alg».proof.Proof.Gen.KernelIdeal.Frame
import proofs.«128953_j25632364822677_2_alg».proof.Proof.Spec
import proofs.«128953_j25632364822677_2_alg».proof.Proof.Accum
import Idealize.ShloMosaic.Lib.Pipeline.Value

noncomputable section

namespace Cert.KernelIdeal.Final

open Cert.KernelIdeal Cert.KernelIdeal.Gen Idealize.ShloMosaic Idealize.ShloMosaic.TcCoe Idealize.SL.Sem Idealize.ShloMosaic.ValueIdx
open Cert.KernelIdeal.Accum (X Y)

variable (m : (ℓ : Loc nD τ sig) → Buf (Elt Ideal) ℓ)

/-- The output windows' block indices, decided over the grid: block (t / 8, 0, 0) at point t. -/
theorem idx2 : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)
theorem idx3 : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)

/-- The first output array: the intersection of batch element b at every entry (b, i, j). -/
def hitArr (c : Dev nD) : S16x8x128.Idx → EReal := fun i => Cert.Dice.accHit (X m c) (Y m c) (8 * (i 0).val + 7)
/-- The second output array: the probability mass likewise. -/
def massArr (c : Dev nD) : S16x8x128.Idx → EReal := fun i => Cert.Dice.accMass (X m c) (8 * (i 0).val + 7)

theorem out2_all (c : Dev nD) (t : Fin cfg0.N) (h7 : t.val % 8 = 7) (y : S1x8x128.Idx) :
    (outsAt0 m c t.val t.isLt).1 y = Cert.Dice.accHit (X m c) (Y m c) t.val := by
  obtain ⟨u, i, j, rfl⟩ : ∃ (u : Fin 1) (i : Fin 8) (j : Fin 128), y = ix3 u i j := ⟨y 0, y 1, y 2, eq_ix3 y⟩
  exact Accum.out2_eq m c t h7 u i j

theorem out3_all (c : Dev nD) (t : Fin cfg0.N) (h7 : t.val % 8 = 7) (y : S1x8x128.Idx) :
    (outsAt0 m c t.val t.isLt).2.1 y = Cert.Dice.accMass (X m c) t.val := by
  obtain ⟨u, i, j, rfl⟩ : ∃ (u : Fin 1) (i : Fin 8) (j : Fin 128), y = ix3 u i j := ⟨y 0, y 1, y 2, eq_ix3 y⟩
  exact Accum.out3_eq m c t h7 u i j

/-- What a write-back of the first output writes is its block of `hitArr`. -/
theorem flushed2_eq (c : Dev nD) (t : Fin cfg0.N) (hf : (cfg0.win 2).flush t = true) :
    (dats m 0 c).flushed 2 t = ((cfg0.win 2).blk t).view.read (Elt Ideal) (hitArr m c) := by
  have h7 : t.val % 8 = 7 := (flush0_2 t).mp hf
  show (cfg0.win 2).cut (grid0.coords t) ((dats m 0 c).after 2 t) = _
  rw [after0_2]
  funext y
  refine (out2_all m c t h7 y).trans ?_
  show Cert.Dice.accHit (X m c) (Y m c) t.val = Cert.Dice.accHit (X m c) (Y m c) (8 * ((((cfg0.win 2).blk t).view.emb y) 0).val + 7)
  have e : ((((cfg0.win 2).blk t).view.emb y) 0).val = t.val / 8 := by
    show win0_2.index t (0 : Fin 3) * 1 + 1 * (y 0).val = t.val / 8
    have hy : (y 0).val < 1 := (y 0).isLt
    rw [(idx2 t).1]; omega
  rw [e]
  exact congrArg _ (by omega)

theorem flushed3_eq (c : Dev nD) (t : Fin cfg0.N) (hf : (cfg0.win 3).flush t = true) :
    (dats m 0 c).flushed 3 t = ((cfg0.win 3).blk t).view.read (Elt Ideal) (massArr m c) := by
  have h7 : t.val % 8 = 7 := (flush0_3 t).mp hf
  show (cfg0.win 3).cut (grid0.coords t) ((dats m 0 c).after 3 t) = _
  rw [after0_3]
  funext y
  refine (out3_all m c t h7 y).trans ?_
  show Cert.Dice.accMass (X m c) t.val = Cert.Dice.accMass (X m c) (8 * ((((cfg0.win 3).blk t).view.emb y) 0).val + 7)
  have e : ((((cfg0.win 3).blk t).view.emb y) 0).val = t.val / 8 := by
    show win0_3.index t (0 : Fin 3) * 1 + 1 * (y 0).val = t.val / 8
    have hy : (y 0).val < 1 := (y 0).isLt
    rw [(idx3 t).1]; omega
  rw [e]
  exact congrArg _ (by omega)

/-- An index is in point t's block of the first output iff each coordinate is in the block's range. -/
theorem mem_blk2 (t : Fin cfg0.N) (i : S16x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0_0).slice (win0_2.rect t)).set ↔ _
  rw [View.set_slice_whole, Rect.mem_set_unit]
  exact Iff.rfl

theorem mem_blk3 (t : Fin cfg0.N) (i : S16x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0_1).slice (win0_3.rect t)).set ↔ _
  rw [View.set_slice_whole, Rect.mem_set_unit]
  exact Iff.rfl

/-- Entry (b, i, j) lies in the block written back at point 8 b + 7. -/
theorem cover2 (i : S16x8x128.Idx) : ∃ t : Fin cfg0.N, (cfg0.win 2).flush t = true ∧ i ∈ ((cfg0.win 2).blk t).view.set := by
  have hN : cfg0.N = 128 := N_0
  have h0 : (i 0).val < 16 := (i 0).isLt
  have h1 : (i 1).val < 8 := (i 1).isLt
  have h2 : (i 2).val < 128 := (i 2).isLt
  refine ⟨⟨8 * (i 0).val + 7, by omega⟩, (flush0_2 _).mpr (by dsimp only; omega), ?_⟩
  rw [mem_blk2]
  obtain ⟨e0, e1, e2⟩ := idx2 ⟨8 * (i 0).val + 7, by omega⟩
  intro a
  match a with
  | ⟨0, _⟩ =>
    show win0_2.index _ (0 : Fin 3) * 1 ≤ (i 0).val ∧ (i 0).val < win0_2.index _ (0 : Fin 3) * 1 + 1
    rw [e0]; dsimp only; omega
  | ⟨1, _⟩ =>
    show win0_2.index _ (1 : Fin 3) * 8 ≤ (i 1).val ∧ (i 1).val < win0_2.index _ (1 : Fin 3) * 8 + 8
    rw [e1]; omega
  | ⟨2, _⟩ =>
    show win0_2.index _ (2 : Fin 3) * 128 ≤ (i 2).val ∧ (i 2).val < win0_2.index _ (2 : Fin 3) * 128 + 128
    rw [e2]; omega

theorem cover3 (i : S16x8x128.Idx) : ∃ t : Fin cfg0.N, (cfg0.win 3).flush t = true ∧ i ∈ ((cfg0.win 3).blk t).view.set := by
  have hN : cfg0.N = 128 := N_0
  have h0 : (i 0).val < 16 := (i 0).isLt
  have h1 : (i 1).val < 8 := (i 1).isLt
  have h2 : (i 2).val < 128 := (i 2).isLt
  refine ⟨⟨8 * (i 0).val + 7, by omega⟩, (flush0_3 _).mpr (by dsimp only; omega), ?_⟩
  rw [mem_blk3]
  obtain ⟨e0, e1, e2⟩ := idx3 ⟨8 * (i 0).val + 7, by omega⟩
  intro a
  match a with
  | ⟨0, _⟩ =>
    show win0_3.index _ (0 : Fin 3) * 1 ≤ (i 0).val ∧ (i 0).val < win0_3.index _ (0 : Fin 3) * 1 + 1
    rw [e0]; dsimp only; omega
  | ⟨1, _⟩ =>
    show win0_3.index _ (1 : Fin 3) * 8 ≤ (i 1).val ∧ (i 1).val < win0_3.index _ (1 : Fin 3) * 8 + 8
    rw [e1]; omega
  | ⟨2, _⟩ =>
    show win0_3.index _ (2 : Fin 3) * 128 ≤ (i 2).val ∧ (i 2).val < win0_3.index _ (2 : Fin 3) * 128 + 128
    rw [e2]; omega

/-- The first output array after the run. -/
theorem final2 (c : Dev nD) : (dats m 0 c).arrAt 2 cfg0.N = hitArr m c :=
  (dats m 0 c).arrAt_eq_of_cover 2 (hitArr m c) (flushed2_eq m c) cover2

/-- The second output array after the run. -/
theorem final3 (c : Dev nD) : (dats m 0 c).arrAt 3 cfg0.N = massArr m c :=
  (dats m 0 c).arrAt_eq_of_cover 3 (massArr m c) (flushed3_eq m c) cover3

end Cert.KernelIdeal.Final

end
-- ==== Proof.Tail.lean ====
/-
  The kernel's host operations after its grid: they read element (b, 0, 0) of each of the two [16, 8, 128] result
  arrays (a slice of the first row and lane, reshaped to [16]), take the constant 262144 as the label count, and form
  the loss from the three. So the kernel's scalar result is the loss of those two columns and that constant.
-/
import proofs.«128953_j25632364822677_2_alg».proof.Proof.Gen.KernelIdeal.Frame
import proofs.«128953_j25632364822677_2_alg».proof.Proof.Score
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Tail

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The slice [0:16, 0:1, 0:1] of a [16, 8, 128] array, reshaped to [16], read at b is the array at (b, 0, 0). -/
theorem slice_reshape (X : S16x8x128.Idx → EReal) (hs : S16x8x128.Slices ![0, 0, 0] S16x1x1)
    (hc : S16x1x1.ShapeCasts S16) :
    shapeCast S16 (extractStridedSlice S16x1x1 ![0, 0, 0] X hs) hc
      = fun i => X (ix3 (i 0) (0 : Fin 8) (0 : Fin 128)) := by
  funext i
  refine (shapeCast_apply _ hc i (ix3 (i 0) (0 : Fin 1) (0 : Fin 1)) ?_).trans ?_
  · rw [Shape.rowMajor_val_three, Shape.rowMajor_val_one]
    show ((i 0).val * 1 + 0) * 1 + 0 = (i 0).val
    omega
  · refine extractStridedSlice_apply _ X hs _ (ix3 (i 0) (0 : Fin 8) (0 : Fin 128)) fun a => ?_
    match a with
    | ⟨0, _⟩ => show (i 0).val = 0 + (i 0).val; omega
    | ⟨1, _⟩ => show 0 = 0 + 0; rfl
    | ⟨2, _⟩ => show 0 = 0 + 0; rfl

/-- The label count the kernel's host operations use: the constant 262144 at every batch element. -/
theorem count_const :
    (broadcastInDim S16 ![] Gen.bcast_S_S16 (constant (F := Ideal) S_ .f32 0x48800000#32) : FVec Ideal S16 .f32)
      = fun _ => Ideal.ofBits .f32 0x48800000#32 := rfl

/-- The scalar result is no window's array: it is among the buffers the frame's post states through the tail. -/
theorem result_mem : main_v16 ∈ Pipeline.restRefs sig (cfgs 0).spec := by decide

/-- The kernel's scalar result after its host operations is the loss of column (·, 0, 0) of its two result arrays and
    the constant label count. -/
theorem tail_value (c : Dev nD) :
    Pipeline.afterTail₀ cfgs (dats m) 0 (V0 m) [hostOps1] c main_v16
      = Cert.Dice.score Gen.bcast_S_S16 Gen.reducesTo_S16_S_d0 Gen.h_S_
          (fun i => (dats m 0 c).arrAt 2 cfg0.N (ix3 (i 0) (0 : Fin 8) (0 : Fin 128)))
          (fun i => (dats m 0 c).arrAt 3 cfg0.N (ix3 (i 0) (0 : Fin 8) (0 : Fin 128)))
          (broadcastInDim S16 ![] Gen.bcast_S_S16 (constant (F := Ideal) S_ .f32 0x48800000#32)) := by
  unfold Pipeline.afterTail₀
  show StableHlo.after hostOps1 _ (Proc.devRef .tc main_v16) = _
  after_results
  have hw2 : Pipeline.withArrays (cfgs 0).spec c (V0 m c) (fun w => (dats m 0 c).arrAt w (cfgs 0).N)
      (Proc.devRef .tc main_v0_0) = (dats m 0 c).arrAt 2 cfg0.N :=
    Pipeline.withArrays_arr spec0 launch0.win.arr_inj c _ _ 2
  have hw3 : Pipeline.withArrays (cfgs 0).spec c (V0 m c) (fun w => (dats m 0 c).arrAt w (cfgs 0).N)
      (Proc.devRef .tc main_v0_1) = (dats m 0 c).arrAt 3 cfg0.N :=
    Pipeline.withArrays_arr spec0 launch0.win.arr_inj c _ _ 3
  refine Eq.trans (b := Cert.Dice.score Gen.bcast_S_S16 Gen.reducesTo_S16_S_d0 Gen.h_S_ _ _ _) rfl ?_
  refine congrArg₂ (fun A B => Cert.Dice.score Gen.bcast_S_S16 Gen.reducesTo_S16_S_d0 Gen.h_S_ A B _) ?_ ?_
  · funext i
    refine Eq.trans ?_ (congrFun (slice_reshape ((dats m 0 c).arrAt 2 cfg0.N) Gen.slices_S16x8x128_S16x1x1_0_0_0
      Gen.shapeCasts_S16x1x1_S16) i)
    exact congrArg (fun X => shapeCast S16 (extractStridedSlice S16x1x1 ![0, 0, 0] X
      Gen.slices_S16x8x128_S16x1x1_0_0_0) Gen.shapeCasts_S16x1x1_S16 i) hw2
  · funext i
    refine Eq.trans ?_ (congrFun (slice_reshape ((dats m 0 c).arrAt 3 cfg0.N) Gen.slices_S16x8x128_S16x1x1_0_0_0
      Gen.shapeCasts_S16x1x1_S16) i)
    exact congrArg (fun X => shapeCast S16 (extractStridedSlice S16x1x1 ![0, 0, 0] X
      Gen.slices_S16x8x128_S16x1x1_0_0_0) Gen.shapeCasts_S16x1x1_S16 i) hw3

end Cert.KernelIdeal.Tail

end
-- ==== Proof.Loss.lean ====
/-
  The kernel's run, read: its result is the loss of the intersections and probability masses the two output arrays
  hold — entry (b, 0, 0) of each, which the lines after the region slice out — and of the constant label count
  262144 = 512 · 512 that the program spells instead of counting.
-/
import proofs.«128953_j25632364822677_2_alg».proof.Proof.Gen.KernelIdeal.Frame
import proofs.«128953_j25632364822677_2_alg».proof.Proof.Spec
import proofs.«128953_j25632364822677_2_alg».proof.Proof.Score
import proofs.«128953_j25632364822677_2_alg».proof.Proof.Accum
import proofs.«128953_j25632364822677_2_alg».proof.Proof.Final
import proofs.«128953_j25632364822677_2_alg».proof.Proof.Tail

noncomputable section

namespace Cert.KernelIdeal.Loss

open Cert.KernelIdeal Cert.KernelIdeal.Gen Idealize.ShloMosaic Idealize.ShloMosaic.TcCoe Idealize.SL.Sem Idealize.ShloMosaic.ValueIdx
open Cert.KernelIdeal.Accum (X Y)

variable (m : (ℓ : Loc nD τ sig) → Buf (Elt Ideal) ℓ) (ρ : Dev nD → PrngReg)

/-- The loss the kernel's program ends with on core `c`, as a function of the logits and labels it was launched with. -/
def value (c : Dev nD) : FVec Ideal Cert.Dice.S0 .f32 :=
  Cert.Dice.score Gen.bcast_S_S16 Gen.reducesTo_S16_S_d0 Gen.h_S_
    (Cert.Dice.hit (X m c) (Y m c)) (Cert.Dice.mass (X m c)) (fun _ => Ideal.ofBits .f32 0x48800000#32)

/-- The lines after the region compute the loss of the two arrays' (b, 0, 0) entries. -/
theorem tail_eq (c : Dev nD) : Pipeline.afterTail₀ cfgs (dats m) 0 (V0 m) [hostOps1] c main_v16 = value m c := by
  rw [Tail.tail_value m c, Final.final2, Final.final3, Tail.count_const]
  rfl

/-- Every weakly fair execution terminates with the result at that loss and the arguments unchanged. -/
theorem run : θ_run defs (onTc (τ := τ) (main (F := Ideal))) ⟨m, fun _ => 0, ρ⟩ fun r => ∀ c : Dev nD,
      r.2.mem ((c : Thread nD τ).loc main_v16) = value m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v16 Tail.result_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Loss

end
-- ==== Proof.RefSums.lean ====
/-
  The finite-sum algebra of the reference's statistics. The reference flattens a batch element's 21 × 512 × 512 array
  row-major into one axis of length 5505024 = 21 · 262144 and sums along it; the walk sums the same terms by stripe,
  lane, row and class. The two orders are related by the bijection (s, w, r, ch) ↦ ch · 262144 + (64 s + r) · 512 + w,
  and a sum in an additive commutative monoid does not depend on the order of its terms.
-/
import proofs.«128953_j25632364822677_2_alg».proof.Proof.Spec

noncomputable section

namespace Cert.RefSide

open Idealize.ShloMosaic

/-- The flat position of class `ch`, row `64 s + r`, lane `w` in a batch element's row-major layout, as a bijection
    from (stripe, lane, row, class) onto the positions 0 … 5505023. -/
def flatEquiv : Fin 8 × Fin 512 × Fin 64 × Fin 21 ≃ Fin 5505024 where
  toFun p := ⟨p.2.2.2.val * 262144 + (p.1.val * 64 + p.2.2.1.val) * 512 + p.2.1.val, by
    have h1 := p.1.isLt; have h2 := p.2.1.isLt; have h3 := p.2.2.1.isLt; have h4 := p.2.2.2.isLt; omega⟩
  invFun k := (⟨k.val / 32768 % 8, by omega⟩, ⟨k.val % 512, by omega⟩, ⟨k.val / 512 % 64, by omega⟩,
    ⟨k.val / 262144, by have := k.isLt; omega⟩)
  left_inv p := by
    obtain ⟨s, w, r, ch⟩ := p
    have h1 := s.isLt; have h2 := w.isLt; have h3 := r.isLt; have h4 := ch.isLt
    refine Prod.ext (Fin.ext ?_) (Prod.ext (Fin.ext ?_) (Prod.ext (Fin.ext ?_) (Fin.ext ?_))) <;>
      simp only <;> omega
  right_inv k := by
    have := k.isLt
    apply Fin.ext
    simp only
    omega

theorem flatEquiv_val (s : Fin 8) (w : Fin 512) (r : Fin 64) (ch : Fin 21) :
    (flatEquiv (s, w, r, ch)).val = ch.val * 262144 + (s.val * 64 + r.val) * 512 + w.val := rfl

/-- A sum over the flat positions is the sum over stripes, lanes, rows and classes, in that nesting. -/
theorem sum_flat {M : Type*} [AddCommMonoid M] (f : Fin 5505024 → M) :
    ∑ k : Fin 5505024, f k
      = ∑ s : Fin 8, ∑ w : Fin 512, ∑ r : Fin 64, ∑ ch : Fin 21, f (flatEquiv (s, w, r, ch)) := by
  rw [← Equiv.sum_comp flatEquiv f]
  simp only [Fintype.sum_prod_type]

end Cert.RefSide

end
-- ==== Proof.RefRead.lean ====
/-
  The reference's three per-batch sums, read at a batch index, are the soft Dice statistics of the specification:
  its flattened axis of length 5505024 enumerates (class, row, lane) row-major, so re-indexing by
  (stripe, lane, row, class) turns each of its sums into the sum over a batch element's eight stripes.
-/
import proofs.«128953_j25632364822677_2_alg».proof.Proof.Spec
import proofs.«128953_j25632364822677_2_alg».proof.Proof.RefSums
import proofs.«128953_j25632364822677_2_alg».proof.Proof.Gen.ReferenceIdeal.Read

noncomputable section

namespace Cert.RefSide

open Cert.ReferenceIdeal Cert.ReferenceIdeal.Facts₀ Cert.ReferenceIdeal.Read
open Idealize.ShloMosaic Idealize.ShloMosaic.ValueIdx

/-- The pattern of 1.0 denotes 1. -/
theorem ofBits_one : Ideal.ofBits .f32 0x3F800000#32 = 1 := by
  simp [Ideal.ofBits, Ideal.ieee, -EReal.coe_mul]; norm_num

/-- The pattern of 262144.0 denotes the real 262144. -/
theorem ofBits_262144 : Ideal.ofBits .f32 0x48800000#32 = ((262144 : ℝ) : EReal) := by
  simp [Ideal.ofBits, Ideal.ieee, -EReal.coe_mul]; norm_num

/-- The conversion of an equality test's bit: 1 when the two words agree, else 0. -/
theorem uitofp_cmpi_eq (a b : BitVec 32) :
    FloatOps.uitofp (F := Ideal) .f32 (IntOp.cmpi .eq a b) = if b = a then (1 : EReal) else 0 := by
  show (((IntOp.cmpi .eq a b).toNat : ℝ) : EReal) = _
  unfold IntOp.cmpi
  by_cases h : b = a
  · subst h
    simp
  · have hne : (a == b) = false := by
      rw [beq_eq_false_iff_ne]
      exact fun e => h e.symm
    rw [if_neg h, hne]
    simp

variable [Cert.ReferenceIdeal.Facts]

/-- The reference's probability array at an index is the logistic function of the logit there. -/
theorem v6_eq (x : Cert.Dice.SX.Idx → EReal) (j : S16x21x512x512.Idx) :
    val_main_v6 (F := Ideal) x j = Cert.Dice.prob x j := by
  rw [val_main_v6_apply, val_main_v5_apply, val_main_cst_0_apply, val_main_v4_apply, val_main_v3_apply,
    val_main_cst_apply, val_main_v2_apply, val_main_v1_apply]
  simp only [Ideal.hostDivf_def, Ideal.addf_def, Ideal.hostUnary_exp_def, Ideal.hostNegf_def, Ideal.negf_def,
    Ideal.ofBits_def, ofBits_one]
  rfl

/-- The reference's one-hot array at an index: 1 when the class coordinate is the pixel's label, else 0. -/
theorem v0_eq (y : Cert.Dice.SY.Idx → BitVec 32) (j : S16x21x512x512.Idx) :
    val_main_v0 (F := Ideal) y j = if BitVec.ofNat 32 (j 1).val = y (ix3 (j 0) (j 2) (j 3)) then (1 : EReal) else 0 := by
  rw [val_main_v0_apply, val_main_call0_v4_apply, val_main_call0_v2_apply, val_main_call0_v0_apply,
    val_main_call0_v3_apply, val_main_call0_v1_apply, uitofp_cmpi_eq]
  have hy : idx_main_call0_v0 (idx_main_call0_v2 j) = ix3 (j 0) (j 2) (j 3) :=
    funext fun a => match a with | ⟨0, _⟩ => rfl | ⟨1, _⟩ => rfl | ⟨2, _⟩ => rfl
  rw [hy]
  rfl

/-- The flat position of (stripe, lane, row, class) in batch element `i 0`, reshaped back to four coordinates, is the
    logit index the walk visits at point 8 (i 0) + s. -/
theorem idx_px (i : S16.Idx) (s : Fin 8) (w : Fin 512) (r : Fin 64) (ch : Fin 21) :
    idx_main_v7 (idx_main_v10 i (flatEquiv (s, w, r, ch))) = Cert.Dice.px (8 * (i 0).val + s.val) ch r w := by
  have h0 : (i 0).val < 16 := (i 0).isLt
  have h1 := s.isLt
  have h2 := w.isLt
  have h3 := r.isLt
  have h4 := ch.isLt
  funext a
  apply Fin.ext
  match a with
  | ⟨0, _⟩ =>
    show ((i 0).val * 5505024 + (ch.val * 262144 + (s.val * 64 + r.val) * 512 + w.val)) / 5505024
      = (8 * (i 0).val + s.val) / 8 % 16
    omega
  | ⟨1, _⟩ =>
    show ((i 0).val * 5505024 + (ch.val * 262144 + (s.val * 64 + r.val) * 512 + w.val)) / 262144 % 21 = ch.val
    omega
  | ⟨2, _⟩ =>
    show ((i 0).val * 5505024 + (ch.val * 262144 + (s.val * 64 + r.val) * 512 + w.val)) / 512 % 512
      = (8 * (i 0).val + s.val) % 8 * 64 + r.val
    omega
  | ⟨3, _⟩ =>
    show ((i 0).val * 5505024 + (ch.val * 262144 + (s.val * 64 + r.val) * 512 + w.val)) % 512 = w.val
    omega

/-- The reference's probability mass of a batch element is the specification's. -/
theorem ref_mass (x : Cert.Dice.SX.Idx → EReal) :
    Cert.ReferenceIdeal.Read.val_main_v15 (F := Ideal) x = Cert.Dice.mass x := by
  funext i
  rw [val_main_v15_apply, val_main_cst_4_apply, Ideal.ofBits_def, Ideal.ofBits_zero_f32, zero_add,
    Cert.Dice.mass_eq_sum, sum_flat]
  refine Finset.sum_congr rfl fun s _ => ?_
  unfold Cert.Dice.stripeMass
  refine Finset.sum_congr rfl fun w _ => Finset.sum_congr rfl fun r _ => Finset.sum_congr rfl fun ch _ => ?_
  rw [val_main_v7_apply, v6_eq]
  exact congrArg (Cert.Dice.prob x) (idx_px i s w r ch)

/-- The reference's intersection of a batch element is the specification's: each term is a probability times the
    one-hot value, which keeps the probability where the class is the pixel's label and is 0 elsewhere. -/
theorem ref_hit (x : Cert.Dice.SX.Idx → EReal) (y : Cert.Dice.SY.Idx → BitVec 32) :
    Cert.ReferenceIdeal.Read.val_main_v10 (F := Ideal) x y = Cert.Dice.hit x y := by
  funext i
  rw [val_main_v10_apply, val_main_cst_1_apply, Ideal.ofBits_def, Ideal.ofBits_zero_f32, zero_add,
    Cert.Dice.hit_eq_sum, sum_flat]
  refine Finset.sum_congr rfl fun s _ => ?_
  unfold Cert.Dice.stripeHit
  refine Finset.sum_congr rfl fun w _ => Finset.sum_congr rfl fun r _ => Finset.sum_congr rfl fun ch _ => ?_
  rw [val_main_v9_apply, val_main_v7_apply, val_main_v8_apply, v6_eq, v0_eq, Ideal.mulf_def]
  have hp : idx_main_v8 (idx_main_v10 i (flatEquiv (s, w, r, ch))) = Cert.Dice.px (8 * (i 0).val + s.val) ch r w :=
    idx_px i s w r ch
  rw [hp, idx_px]
  show Cert.Dice.prob x (Cert.Dice.px (8 * (i 0).val + s.val) ch r w)
      * (if BitVec.ofNat 32 ch.val = y (Cert.Dice.py (8 * (i 0).val + s.val) r w) then (1 : EReal) else 0) = _
  by_cases hc : BitVec.ofNat 32 ch.val = y (Cert.Dice.py (8 * (i 0).val + s.val) r w)
  · rw [if_pos hc, if_pos hc, mul_one]
  · rw [if_neg hc, if_neg hc, mul_zero]

/-- One pixel's one-hot row sums to 1 when its label is one of the 21 classes: exactly one class matches. -/
theorem sum_onehot (l : BitVec 32) (hl : l.toNat < 21) :
    ∑ ch : Fin 21, (if BitVec.ofNat 32 ch.val = l then (1 : EReal) else 0) = 1 := by
  have hiff : ∀ ch : Fin 21, (BitVec.ofNat 32 ch.val = l) ↔ ch = ⟨l.toNat, hl⟩ := by
    intro ch
    have h4 := ch.isLt
    constructor
    · intro e
      apply Fin.ext
      have := congrArg BitVec.toNat e
      rw [BitVec.toNat_ofNat] at this
      show ch.val = l.toNat
      omega
    · intro e
      subst e
      apply BitVec.eq_of_toNat_eq
      rw [BitVec.toNat_ofNat]
      exact Nat.mod_eq_of_lt l.isLt
  simp only [hiff]
  rw [Finset.sum_ite_eq' Finset.univ (⟨l.toNat, hl⟩ : Fin 21) (fun _ => (1 : EReal))]
  exact if_pos (Finset.mem_univ _)

/-- The reference's one-hot count of a batch element is 262144 = 8 · 512 · 64, one per pixel, when every label is a
    class. -/
theorem ref_count (y : Cert.Dice.SY.Idx → BitVec 32) (hy : ∀ j, (y j).toNat < 21) :
    Cert.ReferenceIdeal.Read.val_main_v16 (F := Ideal) y = fun _ => Ideal.ofBits .f32 0x48800000#32 := by
  funext i
  rw [val_main_v16_apply, val_main_cst_5_apply, Ideal.ofBits_def, Ideal.ofBits_zero_f32, zero_add, sum_flat,
    ofBits_262144]
  have hin : ∀ (s : Fin 8) (w : Fin 512) (r : Fin 64),
      ∑ ch : Fin 21, val_main_v8 (F := Ideal) y (idx_main_v16 i (flatEquiv (s, w, r, ch))) = 1 := by
    intro s w r
    refine Eq.trans (Finset.sum_congr rfl fun ch _ => ?_)
      (sum_onehot (y (Cert.Dice.py (8 * (i 0).val + s.val) r w)) (hy _))
    rw [val_main_v8_apply, v0_eq]
    have hp : idx_main_v8 (idx_main_v16 i (flatEquiv (s, w, r, ch))) = Cert.Dice.px (8 * (i 0).val + s.val) ch r w :=
      idx_px i s w r ch
    rw [hp]
    rfl
  simp only [hin, Finset.sum_const, Finset.card_univ, Fintype.card_fin]
  rw [← EReal.coe_one, ← EReal.coe_nsmul, ← EReal.coe_nsmul, ← EReal.coe_nsmul]
  norm_num

end Cert.RefSide

end
-- ==== Proof.RefScore.lean ====
/-
  The reference's result is the loss formed from its three per-batch sums: after the intersection, the probability mass
  and the label count, its remaining operations are 1 - (0 + ∑ over the batch of 2 (A + 1) / ((B + C) + 1)) / 16,
  operation by operation the expression the loss is defined as.
-/
import proofs.«128953_j25632364822677_2_alg».proof.Proof.Score
import proofs.«128953_j25632364822677_2_alg».proof.Proof.Gen.ReferenceIdeal.Read

noncomputable section

namespace Cert.RefSide

open Cert.ReferenceIdeal Cert.ReferenceIdeal.Facts₀ Cert.ReferenceIdeal.Read
open Idealize.ShloMosaic

variable [Cert.ReferenceIdeal.Facts]

/-- The reference's scalar result, as the loss of its intersection, mass and count arrays. -/
theorem ref_score (x : Cert.Dice.SX.Idx → EReal) (y : Cert.Dice.SY.Idx → BitVec 32) :
    Cert.ReferenceIdeal.Read.val_main_v23 (F := Ideal) x y
      = Cert.Dice.score Cert.ReferenceIdeal.Facts₀.bcast_S_S16 Cert.ReferenceIdeal.Facts₀.reducesTo_S16_S_d0
          Cert.ReferenceIdeal.Facts₀.h_S_
          (Cert.ReferenceIdeal.Read.val_main_v10 (F := Ideal) x y) (Cert.ReferenceIdeal.Read.val_main_v15 (F := Ideal) x)
          (Cert.ReferenceIdeal.Read.val_main_v16 (F := Ideal) y) := by
  unfold val_main_v23 val_main_v22 val_main_v21 val_main_v20 val_main_v19 val_main_v18 val_main_v17 val_main_v14
    val_main_v13 val_main_v12 val_main_v11 val_main_cst_9 val_main_cst_8 val_main_cst_7 val_main_cst_6 val_main_cst_3
    val_main_cst_2 Cert.Dice.score
  rfl

end Cert.RefSide

end
-- ==== Proof.Labels.lean ====
/-
  What the precondition says of the labels: every label word, read unsigned, is one of the 21 classes. The
  precondition's second conjunct is an "all" over the pixels of (0 ≤ y signed) and (y < 21 signed); a 32-bit word that
  is nonnegative as a signed number equals its unsigned reading, so it is below 21 unsigned too.
-/
import proofs.«128953_j25632364822677_2_alg».proof.Pre_finite_inputs
import proofs.«128953_j25632364822677_2_alg».proof.Proof.Spec
import Idealize.ShloMosaic.Lib.ReduceAll

noncomputable section

namespace Cert.Labels

open Idealize.ShloMosaic Idealize.ShloMosaic.ValueIdx

/-- A word in [0, 21) signed is below 21 unsigned. -/
theorem toNat_lt (w : BitVec 32) (h0 : IntOp.cmpi .sge w (0#32) = 1#1) (h1 : IntOp.cmpi .slt w (21#32) = 1#1) :
    w.toNat < 21 := by
  rw [IntOp.cmpi_sge] at h0
  rw [IntOp.cmpi_slt] at h1
  have e0 : (0#32 : BitVec 32).toInt = 0 := by decide
  have e21 : (21#32 : BitVec 32).toInt = 21 := by decide
  rw [e0] at h0
  rw [e21] at h1
  have hw := w.isLt
  rw [BitVec.toInt_eq_toNat_cond] at h0 h1
  split at h0 <;> omega

variable [Cert.Pre_finite_inputs.Facts]

open Cert.Pre_finite_inputs Cert.Pre_finite_inputs.Facts

instance : Subsingleton Cert.Pre_finite_inputs.S_.Idx := ⟨fun a b => funext fun d => d.elim0⟩

/-- Under the precondition every label is a class. -/
theorem labels_in_range (x : Cert.Dice.SX.Idx → EReal) (y : Cert.Dice.SY.Idx → BitVec 32)
    (h : Cert.Pre_finite_inputs.fn (F := Ideal) x y = fun _ => 1#1) : ∀ j, (y j).toNat < 21 := by
  intro j
  have e := congrFun h ix0
  unfold Cert.Pre_finite_inputs.fn at e
  have e2 := (IntOp.andi_eq_one.1 e).2
  have e3 := Host.reduce_andi_all _ _ reducesTo_S16x512x512_S_d0_1_2 h_S_ ix0 e2 j
  obtain ⟨a, b⟩ := IntOp.andi_eq_one.1 e3
  exact toNat_lt _ a b

end Cert.Labels

end
-- ==== Proof.lean ====
/-
  The soft Dice loss of a batch: the kernel against its reference, over the extended reals.

  Both programs end in one expression of three per-batch statistics — the intersection A, the probability mass B and
  the label count C of each of the 16 batch elements: 1 - (∑ 2 (A + 1) / ((B + C) + 1)) / 16. The reference forms
  each statistic as one sum over the 21 · 512 · 512 flattened positions of a batch element; the kernel walks each batch
  element in eight stripes of 64 rows, sums a stripe over lanes, rows and classes, and accumulates the stripes. Sums
  of extended reals re-index and re-associate freely, so A and B agree on every input. The kernel does not count the
  labels: it spells C = 512 · 512, which is what the reference's one-hot count comes to exactly when every label is
  one of the 21 classes — the stated domain of the labels.
-/
import proofs.«128953_j25632364822677_2_alg».proof.Defs
import proofs.«128953_j25632364822677_2_alg».proof.Proof.Gen.Kernel
import proofs.«128953_j25632364822677_2_alg».proof.Proof.Gen.Kernel.Frame
import proofs.«128953_j25632364822677_2_alg».proof.Proof.Gen.KernelIdeal
import proofs.«128953_j25632364822677_2_alg».proof.Proof.Gen.KernelIdeal.Frame
import proofs.«128953_j25632364822677_2_alg».proof.Proof.Gen.ReferenceIdeal
import proofs.«128953_j25632364822677_2_alg».proof.Proof.Gen.ReferenceIdeal.Run
import proofs.«128953_j25632364822677_2_alg».proof.Proof.Gen.ReferenceIdeal.Read
import proofs.«128953_j25632364822677_2_alg».proof.Proof.Gen.Pre_finite_inputs
import proofs.«128953_j25632364822677_2_alg».proof.Proof.Loss
import proofs.«128953_j25632364822677_2_alg».proof.Proof.RefRead
import proofs.«128953_j25632364822677_2_alg».proof.Proof.RefScore
import proofs.«128953_j25632364822677_2_alg».proof.Proof.Labels
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From arguments that agree, with every label a class, both programs end at the loss of the same three statistics. -/
theorem algebraic : Cert.algebraic_KernelIdeal_ReferenceIdeal := by
  intro m ρ m' ρ' hpre hagree
  refine ⟨fun c => Cert.KernelIdeal.Loss.value m c, Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2, Cert.RefSide.ref_score,
    Cert.RefSide.ref_hit, Cert.RefSide.ref_mass,
    Cert.RefSide.ref_count _ (Cert.Labels.labels_in_range _ _ (hpre c))]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
